-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF61B1E6#32 ⊥
  ∧ IdealRules.named_const.Statement Cert.KernelIdeal.κ "pos_big" .f32 0x7F61B1E6#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S55x256 : Shape := ⟨2, ![55, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S55x256 : S_.BroadcastsInDim S55x256 (![] : Fin 0 → Fin S55x256.rank)
  reducesTo_S55x256_S_d0_1 : S55x256.ReducesTo [0, 1] S_

variable [Facts]

def fn {F : FTy → Type} [FloatOps F] (main_arg0 : FVec F S1024x256 .f32) (main_arg1 : IVec S1024 32) (main_arg2 : FVec F S55x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S55x256 .f32 := Host.absf main_arg2
  let main_cst_0 : FVec F S_ .f32 := constant S_ .f32 0x7F800000#32
  let main_v5 : FVec F S55x256 .f32 := broadcastInDim S55x256 ![] bcast_S_S55x256 main_cst_0
  let main_v6 : IVec S55x256 1 := cmpf .olt main_v4 main_v5
  let main_c_1 : IVec S_ 1 := constantI S_ 1 1#1
  let main_v7 : IVec S_ 1 := (fun x v => Host.reduce IntOp.andi x v reducesTo_S55x256_S_d0_1 h_S_) main_v6 main_c_1
  let main_v8 : IVec S_ 1 := andi main_v3 main_v7
  main_v8
-- ==== Kernel.lean ====
abbrev S1024x256 : Shape := ⟨2, ![1024, 256]⟩
abbrev S1024 : Shape := ⟨1, ![1024]⟩
abbrev S55x256 : Shape := ⟨2, ![55, 256]⟩
abbrev S_ : Shape := ⟨0, ![]⟩
abbrev S1024x1 : Shape := ⟨2, ![1024, 1]⟩
abbrev S1x1024 : Shape := ⟨2, ![1, 1024]⟩
abbrev S256x256 : Shape := ⟨2, ![256, 256]⟩
abbrev S256x1 : Shape := ⟨2, ![256, 1]⟩
abbrev S256x1024 : Shape := ⟨2, ![256, 1024]⟩
abbrev S256 : Shape := ⟨1, ![256]⟩

abbrev nBuf : Space → Nat
  | .hbm => 43
  | .vmem => 13
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S55x256, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x256, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1x1024, .f32⟩
  | .hbm, ⟨21, _⟩ => ⟨S1024x1, .i32⟩
  | .hbm, ⟨22, _⟩ => ⟨S1x1024, .i32⟩
  | .hbm, ⟨23, _⟩ => ⟨S1024x1, .f32⟩
  | .hbm, ⟨24, _⟩ => ⟨S1024x1, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S1024x256, .f32⟩
  | .local _ .vmem, ⟨3, _⟩ => ⟨S256x1, .f32⟩
  | .local _ .vmem, ⟨4, _⟩ => ⟨S256x1, .f32⟩
  | .local _ .vmem, ⟨5, _⟩ => ⟨S1x1024, .f32⟩
  | .local _ .vmem, ⟨6, _⟩ => ⟨S256x1, .i32⟩
  | .local _ .vmem, ⟨7, _⟩ => ⟨S256x1, .i32⟩
  | .local _ .vmem, ⟨8, _⟩ => ⟨S1x1024, .i32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  reducesTo_S1024x256_S1024_d1 : S1024x256.ReducesTo [1] S1024
  h_S_ : 0 < S_.numel
  shapeCasts_S1024x1_S1x1024 : S1024x1.ShapeCasts S1x1024
  shapeCasts_S1024_S1024x1 : S1024.ShapeCasts S1024x1
  shapeCasts_S1024_S1x1024 : S1024.ShapeCasts S1x1024
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  shapeCasts_S1024x1_S1024 : S1024x1.ShapeCasts S1024
  reducesTo_S1024_S_d0 : S1024.ReducesTo [0] S_
  gather_S55x256_S1024x1_S1024x256_1_0_n_n_0_1_1256_wf : GatherDims.WF S55x256 S1024x1 S1024x256 [1] [0] [] [0] [] 1 ![1, 256]
  dot_S256x256_S1024x256_S256x1024_1_1_0_0_n_n_wf : DotDims.WF S256x256 S1024x256 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .i32 = 32 ∨ (Rect.block (s := S1024x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .i32 = 32 ∨ (Rect.block (s := S1x1024) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S1024x1.size a
  hwx0_6 : ∀ i : grid0.Coords, EltTy.bits .f32 = 32 ∨ (Rect.block (s := S1024x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S1024x1.size a
  hwx0_7 : ∀ i : grid0.Coords, EltTy.bits .f32 = 32 ∨ (Rect.block (s := S1024x1) S256x1.size (cc0_transform_7 i) (hinb0_7 i)).WholeWords (EltTy.packing .f32)

variable [Facts₀]

def gather_S55x256_S1024x1_S1024x256_1_0_n_n_0_1_1256 : GatherDims S55x256 S1024x1 S1024x256 where
  offsetDims := [1]
  collapsedSliceDims := [0]
  operandBatchingDims := []
  startIndicesBatchingDims := []
  startIndexMap := [0]
  indexVectorDim := 1
  sliceSizes := ![1, 256]
  wf := gather_S55x256_S1024x1_S1024x256_1_0_n_n_0_1_1256_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S55x256 : Shape := ⟨2, ![55, 256]⟩
abbrev S_ : Shape := ⟨0, ![]⟩
abbrev S1024x1 : Shape := ⟨2, ![1024, 1]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1024x1024 : Shape := ⟨2, ![1024, 1024]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S55x256, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x256, .f32⟩
  | .hbm, ⟨12, _⟩ => ⟨S1024x1x256, .f32⟩
  | .hbm, ⟨13, _⟩ => ⟨S1x1024x256, .f32⟩
  | .hbm, ⟨14, _⟩ => ⟨S1024x1024x256, .f32⟩
  | .hbm, ⟨15, _⟩ => ⟨S1024x1024x256, .f32⟩
  | .hbm, ⟨16, _⟩ => ⟨S1024x1024x256, .f32⟩
  | .hbm, ⟨17, _⟩ => ⟨S1024x1024x256, .f32⟩
  | .hbm, ⟨18, _⟩ => ⟨S_, .f32⟩
  | .hbm, ⟨19, _⟩ => ⟨S1024x1024, .f32⟩
  | .hbm, ⟨20, _⟩ => ⟨S_, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1, .i32⟩
  | .hbm, ⟨26, _⟩ => ⟨S1x1024, .i32⟩
  | .hbm, ⟨27, _⟩ => ⟨S1024x1024, .i32⟩
  | .hbm, ⟨28, _⟩ => ⟨S1024x1024, .i32⟩
  | .hbm, ⟨29, _⟩ => ⟨S1024x1024, .i1⟩
  | .hbm, ⟨30, _⟩ => ⟨S_, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_call3_cst : Ref sig .tc := ⟨.hbm, 46, rfl⟩
abbrev main_call3_v0 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  reducesTo_S1024_S_d0 : S1024.ReducesTo [0] S_
  gather_S55x256_S1024x1_S1024x256_1_0_n_n_0_1_1256_wf : GatherDims.WF S55x256 S1024x1 S1024x256 [1] [0] [] [0] [] 1 ![1, 256]

variable [Facts₀]

def gather_S55x256_S1024x1_S1024x256_1_0_n_n_0_1_1256 : GatherDims S55x256 S1024x1 S1024x256 where
  offsetDims := [1]
  collapsedSliceDims := [0]
  operandBatchingDims := []
  startIndicesBatchingDims := []
  startIndexMap := [0]
  indexVectorDim := 1
  sliceSizes := ![1, 256]
  wf := gather_S55x256_S1024x1_S1024x256_1_0_n_n_0_1_1256_wf

class Facts : Prop extends Facts₀ where

variable [Facts]
-- ==== Proof.LibSquareExpand.lean ====
/-
  The expansion of a squared Euclidean distance, on the extended reals.

  For two finite families a, b of extended reals ALL OF WHOSE ENTRIES ARE REAL NUMBERS,

      (z + sum a_k * a_k) + (z + sum b_k * b_k) - two * (sum a_k * b_k)  =  z + sum (a_k - b_k) * (a_k - b_k)

  where z = 0 and two = 2 are handed in as the programs spell them (a sum started from the zero word; the f32 pattern
  of 2.0), so that the statement meets a kernel's "norms minus twice the inner product" and a reference's "sum of
  squared differences" as they are printed. The law moves a factor across a sum and cancels, which fails at infinite
  entries (inf - inf): hence the hypothesis that every entry is real. Generic in the index type. Also `coe_sum`: the
  inclusion of the reals in the extended reals commutes with finite sums.
-/
import Idealize.ShloMosaic.PureOps.Ideal

noncomputable section

namespace SquareExpand

/-- The inclusion of the reals in the extended reals commutes with finite sums. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The expansion of a squared Euclidean distance, on real entries: (|a|^2 + |b|^2) - 2 <a, b> = sum of (a - b)^2,
    each sum started from zero as both programs start theirs. -/
theorem sq_expand {ι : Type} [Fintype ι] (a b : ι → EReal) (z two : EReal) (hz : z = 0) (h2 : two = ((2 : ℝ) : EReal))
    (ha : ∀ k, ∃ r : ℝ, a k = r) (hb : ∀ k, ∃ r : ℝ, b k = r) :
    ((z + ∑ k, a k * a k) + (z + ∑ k, b k * b k)) - two * (∑ k, a k * b k)
      = z + ∑ k, (a k - b k) * (a k - b k) := by
  choose ra hra using ha
  choose rb hrb using hb
  simp only [hra, hrb, h2, hz, zero_add]
  simp only [← EReal.coe_mul, ← EReal.coe_sub, ← coe_sum, ← EReal.coe_add]
  refine congrArg _ ?_
  rw [Finset.mul_sum, ← Finset.sum_add_distrib, ← Finset.sum_sub_distrib]
  exact Finset.sum_congr rfl fun k _ => by ring

end SquareExpand

end
-- ==== Proof.Distance.lean ====
/-
  Hard-pair mining over centre distances, on the extended reals: what both programs compute, and the one law that
  joins their two arrangements.

  For a batch of rows x (1024 x 256), the table cb (1024 x 256) whose row k is the centre of sample k's class, and the
  class words tg, the distance of sample i to sample k's centre is

      dist i k = sqrt (max eps (sum over d of (x i d - cb k d)^2)),

  the hardest positive of sample i is the largest such distance over the k of i's own class (every other k
  contributes -inf), and its hardest negative the smallest over the k of another class (the others contribute +inf).
  The kernel takes the squared distance from the expansion (|x_i|^2 + |cb_k|^2) - 2 <x_i, cb_k>; on real entries the
  two are one number (`SquareExpand.sq_expand`, Proof/LibSquareExpand.lean). That law moves factors across sums and
  cancels, so it needs every entry to be a real number: it is stated under that hypothesis and fails at infinite
  entries.
-/
import Idealize.ShloMosaic.PureOps.Ideal.Laws
import Idealize.ShloMosaic.Lib.ValueIdx
import proofs.«170190_j27204322853527_1_alg».proof.Proof.LibSquareExpand

noncomputable section

namespace Cert.HardPairs

open Idealize.ShloMosaic Idealize.ShloMosaic.ValueIdx

/-- The f32 pattern of 2.0 is the real number 2. -/
theorem ofBits_two : Ideal.ofBits .f32 0x40000000#32 = ((2 : ℝ) : EReal) := by
  simp [Ideal.ofBits, Ideal.ieee, -EReal.coe_mul]; norm_num

/-- The f32 pattern of -inf is the least extended real. -/
theorem ofBits_neg_inf : Ideal.ofBits .f32 0xFF800000#32 = (⊥ : EReal) := by
  simp [Ideal.ofBits, Ideal.ieee]

/-- The f32 pattern of +inf is the greatest extended real. -/
theorem ofBits_pos_inf : Ideal.ofBits .f32 0x7F800000#32 = (⊤ : EReal) := by
  simp [Ideal.ofBits, Ideal.ieee]

/-- The shape of the rows and of the gathered centres, and of the class words. -/
abbrev SX : Shape := ⟨2, ![1024, 256]⟩
abbrev ST : Shape := ⟨1, ![1024]⟩

/-- The squared distance of row `i` of `x` to row `k` of `cb`: the sum of the squared differences, from zero. -/
def sqDist (x cb : SX.Idx → EReal) (i k : Fin 1024) : EReal :=
  Ideal.ofBits .f32 0x00000000#32 + ∑ d : Fin 256, (x (ix2 i d) - cb (ix2 k d)) * (x (ix2 i d) - cb (ix2 k d))

/-- The same from the expansion: the two squared norms, less twice the inner product. -/
def sqDistExpanded (x cb : SX.Idx → EReal) (i k : Fin 1024) : EReal :=
  ((Ideal.ofBits .f32 0x00000000#32 + ∑ d : Fin 256, x (ix2 i d) * x (ix2 i d))
      + (Ideal.ofBits .f32 0x00000000#32 + ∑ d : Fin 256, cb (ix2 k d) * cb (ix2 k d)))
    - Ideal.ofBits .f32 0x40000000#32 * ∑ d : Fin 256, x (ix2 i d) * cb (ix2 k d)

/-- On real entries the two squared distances are one number. -/
theorem sqDistExpanded_eq (x cb : SX.Idx → EReal) (hx : ∀ j, ∃ r : ℝ, x j = r) (hc : ∀ j, ∃ r : ℝ, cb j = r)
    (i k : Fin 1024) : sqDistExpanded x cb i k = sqDist x cb i k :=
  SquareExpand.sq_expand (fun d : Fin 256 => x (ix2 i d)) (fun d => cb (ix2 k d)) _ _ Ideal.ofBits_zero_f32 ofBits_two
    (fun d => hx _) (fun d => hc _)

/-- The clamped distance: the square root of the squared distance, kept at least `eps` (the f32 nearest 1e-12). -/
def dist (x cb : SX.Idx → EReal) (i k : Fin 1024) : EReal :=
  Ideal.sqrt (max (Ideal.ofBits .f32 0x2B8CBCCC#32) (sqDist x cb i k))

/-- Sample `i`'s hardest positive: the largest distance to a centre of its own class (-inf elsewhere, and from -inf). -/
def hardPos (x cb : SX.Idx → EReal) (tg : ST.Idx → BitVec 32) (i : Fin 1024) : EReal :=
  (Finset.univ : Finset (Fin 1024)).fold max ⊥
    (fun k => Scalar.select (IntOp.cmpi .eq (tg (ix1 i)) (tg (ix1 k))) (dist x cb i k) ⊥)

/-- Sample `i`'s hardest negative: the smallest distance to a centre of another class (+inf elsewhere, and from +inf). -/
def hardNeg (x cb : SX.Idx → EReal) (tg : ST.Idx → BitVec 32) (i : Fin 1024) : EReal :=
  (Finset.univ : Finset (Fin 1024)).fold min ⊤
    (fun k => Scalar.select (IntOp.cmpi .eq (tg (ix1 i)) (tg (ix1 k))) ⊤ (dist x cb i k))

end Cert.HardPairs

end
-- ==== Proof.RefRows.lean ====
/-
  The reference's two mined columns, read at a row.

  The reference builds the whole 1024 x 1024 table of clamped distances from the broadcast difference
  x[i, :] - cb[k, :], squares, sums over the 256 coordinates from zero, clamps and takes the root; the class mask is
  tg[i] = tg[k]; row i's hardest positive is the maximum over k of the table with -inf where the mask is off, its
  hardest negative the minimum with +inf where it is on. Read at row i these are `hardPos` and `hardNeg` of the
  rows, the gathered centres and the class words.
-/
import proofs.«170190_j27204322853527_1_alg».proof.Proof.Gen.ReferenceIdeal.Read
import proofs.«170190_j27204322853527_1_alg».proof.Proof.Distance

noncomputable section

namespace Cert.ReferenceIdeal.RefRows

open Cert.ReferenceIdeal Cert.ReferenceIdeal.Gen Cert.ReferenceIdeal.Read Idealize.ShloMosaic Idealize.ShloMosaic.TcCoe
open Idealize.ShloMosaic.ValueIdx Cert.HardPairs

/-- Entry (i, k) of the reference's distance table is the clamped distance of row i to the centre of sample k. -/
theorem dist_apply (x0 : (⟨S1024x256, .f32⟩ : BufTy).Contents (Elt Ideal)) (x1 : (⟨S1024, .i32⟩ : BufTy).Contents (Elt Ideal))
    (x2 : (⟨S55x256, .f32⟩ : BufTy).Contents (Elt Ideal)) (i k : Fin 1024) :
    val_main_v15 (F := Ideal) x0 x1 x2 (ix2 i k) = dist x0 (val_main_v6 (F := Ideal) x1 x2) i k := by
  have e1 : ∀ d : Fin 256, idx_main_v7 (idx_main_v9 (idx_main_v13 (ix2 i k) d)) = ix2 i d := fun d =>
    funext fun a => Fin.ext (by match a with | ⟨0, _⟩ => rfl | ⟨1, _⟩ => rfl)
  have e2 : ∀ d : Fin 256, idx_main_v8 (idx_main_v10 (idx_main_v13 (ix2 i k) d)) = ix2 k d := fun d =>
    funext fun a => Fin.ext (by match a with | ⟨0, _⟩ => rfl | ⟨1, _⟩ => rfl)
  rw [val_main_v15_apply, val_main_v14_apply, val_main_call0_v1_apply, val_main_call0_v0_apply, val_main_cst_1_apply,
    val_main_v13_apply, val_main_cst_apply]
  simp only [val_main_v12_apply, val_main_v11_apply, val_main_v9_apply, val_main_v10_apply, val_main_v7_apply,
    val_main_v8_apply, e1, e2, Ideal.hostUnary_sqrt_def, Ideal.maximumf_def, Ideal.subf_def, Ideal.mulf_def,
    Ideal.ofBits_def]
  rfl

/-- Entry (i, k) of the reference's mask: the class words of samples i and k compared. -/
theorem mask_apply (x1 : (⟨S1024, .i32⟩ : BufTy).Contents (Elt Ideal)) (i k : Fin 1024) :
    val_main_v20 (F := Ideal) x1 (ix2 i k) = IntOp.cmpi .eq (x1 (ix1 i)) (x1 (ix1 k)) := by
  have e1 : idx_main_v16 (idx_main_v18 (ix2 i k)) = ix1 i :=
    funext fun a => Fin.ext (by match a with | ⟨0, _⟩ => rfl)
  have e2 : idx_main_v17 (idx_main_v19 (ix2 i k)) = ix1 k :=
    funext fun a => Fin.ext (by match a with | ⟨0, _⟩ => rfl)
  rw [val_main_v20_apply, val_main_v18_apply, val_main_v16_apply, val_main_v19_apply, val_main_v17_apply, e1, e2]

/-- The axis the two reductions drop. -/
theorem reduces_cols : S1024x1024.Reduces [1] S1024 := by decide

/-- Row i with column k put back is entry (i, k). -/
theorem lift_eq (i k : Fin 1024) : reduces_cols.lift (ix1 i) k = ix2 i k :=
  funext fun a => Fin.ext (by match a with | ⟨0, _⟩ => rfl | ⟨1, _⟩ => rfl)

/-- The reference's hardest positive of row i. -/
theorem hardPos_apply (x0 : (⟨S1024x256, .f32⟩ : BufTy).Contents (Elt Ideal)) (x1 : (⟨S1024, .i32⟩ : BufTy).Contents (Elt Ideal))
    (x2 : (⟨S55x256, .f32⟩ : BufTy).Contents (Elt Ideal)) (i : Fin 1024) :
    val_main_v22 (F := Ideal) x0 x1 x2 (ix1 i) = hardPos x0 (val_main_v6 (F := Ideal) x1 x2) x1 i := by
  unfold val_main_v22
  rw [Host.reduce_eq_fold_single FloatOps.maximumf _ _ reducesTo_S1024x1024_S1024_d1 reduces_cols h_S_]
  have hfun : (val_main_v21 (F := Ideal) x0 x1 x2 ∘ reduces_cols.lift (ix1 i))
      = fun k => Scalar.select (IntOp.cmpi .eq (x1 (ix1 i)) (x1 (ix1 k))) (dist x0 (val_main_v6 (F := Ideal) x1 x2) i k) ⊥ :=
    funext fun (k : Fin 1024) => by
      show val_main_v21 (F := Ideal) x0 x1 x2 (reduces_cols.lift (ix1 i) k) = _
      rw [lift_eq, val_main_v21_apply, dist_apply, mask_apply, val_main_call1_v1_apply, val_main_call1_v0_apply,
        val_main_cst_2_apply, Ideal.ofBits_def, ofBits_neg_inf]
  rw [hfun, val_main_cst_3_apply, Ideal.ofBits_def, ofBits_neg_inf]
  rfl

/-- The reference's hardest negative of row i. -/
theorem hardNeg_apply (x0 : (⟨S1024x256, .f32⟩ : BufTy).Contents (Elt Ideal)) (x1 : (⟨S1024, .i32⟩ : BufTy).Contents (Elt Ideal))
    (x2 : (⟨S55x256, .f32⟩ : BufTy).Contents (Elt Ideal)) (i : Fin 1024) :
    val_main_v24 (F := Ideal) x0 x1 x2 (ix1 i) = hardNeg x0 (val_main_v6 (F := Ideal) x1 x2) x1 i := by
  unfold val_main_v24
  rw [Host.reduce_eq_fold_single FloatOps.minimumf _ _ reducesTo_S1024x1024_S1024_d1 reduces_cols h_S_]
  have hfun : (val_main_v23 (F := Ideal) x0 x1 x2 ∘ reduces_cols.lift (ix1 i))
      = fun k => Scalar.select (IntOp.cmpi .eq (x1 (ix1 i)) (x1 (ix1 k))) ⊤ (dist x0 (val_main_v6 (F := Ideal) x1 x2) i k) :=
    funext fun (k : Fin 1024) => by
      show val_main_v23 (F := Ideal) x0 x1 x2 (reduces_cols.lift (ix1 i) k) = _
      rw [lift_eq, val_main_v23_apply, dist_apply, mask_apply, val_main_call2_v1_apply, val_main_call2_v0_apply,
        val_main_cst_4_apply, Ideal.ofBits_def, ofBits_pos_inf]
  rw [hfun, val_main_cst_5_apply, Ideal.ofBits_def, ofBits_pos_inf]
  rfl

end Cert.ReferenceIdeal.RefRows

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.KernelRows.lean ====
/-
  The kernel body's four payloads, read at an index, as functions of the body's six loaded blocks.

  A point's body holds a block of 256 rows of x (v0), the whole table of gathered centres (v1), the rows' squared
  norms as a column (v4), the centres' squared norms as a row (v6), and the class words of the rows as a column
  (v17) and of all samples as a row (v19). Entry (p, k) of its distance table is

      sqrt (max eps ((v4 p + v6 k) - 2 * sum over d of v0 p d * v1 k d)),

  its mask entry compares v17 p with v19 k, and its two outputs are, at row p, the maximum over k of the table with
  the "neg_big" fill where the mask is off, and the minimum over k with the "pos_big" fill where it is on.
-/
import proofs.«170190_j27204322853527_1_alg».proof.Proof.Gen.KernelIdeal.Skeleton
import proofs.«170190_j27204322853527_1_alg».proof.Proof.Distance
import proofs.«170190_j27204322853527_1_alg».proof.Proof.LibDotRows
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.TcCoe
open Idealize.ShloMosaic.ValueIdx Cert.HardPairs

/-- A column broadcast along the rows reads, at (p, k), the column at p. -/
theorem bcast_col {α : Type} (v : S256x1.Idx → α) (p : Fin 256) (k : Fin 1024) :
    broadcastTo S256x1024 v broadcasts_S256x1_S256x1024 (ix2 p k) = v (ix2 p (0 : Fin 1)) := by
  refine broadcastTo_apply v broadcasts_S256x1_S256x1024 (ix2 p k) (ix2 p (0 : Fin 1)) fun ax => ?_
  match ax with
  | ⟨0, _⟩ => show p.val = if (256 : Nat) = 1 then 0 else p.val; rw [if_neg (by decide)]
  | ⟨1, _⟩ => show (0 : Nat) = if (1 : Nat) = 1 then 0 else k.val; rw [if_pos rfl]

/-- A vector of 256 entries cast to a column reads, at (p, 0), entry p. -/
theorem cast_col {α : Type} (v : S256.Idx → α) (p : Fin 256) :
    shapeCast S256x1 v shapeCasts_S256_S256x1 (ix2 p (0 : Fin 1)) = v (ix1 p) := by
  refine shapeCast_apply v shapeCasts_S256_S256x1 (ix2 p (0 : Fin 1)) (ix1 p) ?_
  rw [Shape.rowMajor_val_one, Shape.rowMajor_val_two]
  show p.val = p.val * 1 + 0
  omega

/-- Row p of a [256, 1024] table with column k put back is entry (p, k). -/
theorem lift_eq (p : Fin 256) (k : Fin 1024) : reduces_S256x1024_S256.lift (ix1 p) k = ix2 p k :=
  funext fun a => Fin.ext (by match a with | ⟨0, _⟩ => rfl | ⟨1, _⟩ => rfl)

/-- The body's distance table at (p, k). -/
theorem pay1_apply (v0 : Vec Ideal S256x256 .f32) (v1 : Vec Ideal S1024x256 .f32) (v4 : Vec Ideal S256x1 .f32)
    (v6 : Vec Ideal S1x1024 .f32) (p : Fin 256) (k : Fin 1024) :
    k0_pay1 (F := Ideal) v0 v1 v4 v6 (ix2 p k)
      = Ideal.sqrt (max (Ideal.ofBits .f32 0x2B8CBCCC#32)
          ((v4 (ix2 p (0 : Fin 1)) + v6 (ix2 (0 : Fin 1) k))
            - Ideal.ofBits .f32 0x40000000#32 * ∑ d : Fin 256, v0 (ix2 p d) * v1 (ix2 k d))) := by
  unfold k0_pay1
  simp only [shapeCast_self]
  show Ideal.sqrt (max (Ideal.ofBits .f32 0x2B8CBCCC#32)
      ((broadcastTo S256x1024 v4 broadcasts_S256x1_S256x1024 (ix2 p k)
          + broadcastTo S256x1024 v6 broadcasts_S1x1024_S256x1024 (ix2 p k))
        - Ideal.ofBits .f32 0x40000000#32
          * FloatOps.matmul (F := Ideal) (DotDims.transposedRhs 256 256 1024) (some .fp32) v0 v1
              (constant ⟨2, ![256, 1024]⟩ .f32 0x00000000#32) (ix2 p k))) = _
  rw [bcast_col, broadcastTo_1b_ab_apply, DotRows.matmul_zero_apply]

/-- The body's mask at (p, k). -/
theorem pay2_apply (v17 : Vec Ideal S256x1 .i32) (v19 : Vec Ideal S1x1024 .i32) (p : Fin 256) (k : Fin 1024) :
    k0_pay2 (F := Ideal) v17 v19 (ix2 p k) = IntOp.cmpi .eq (v17 (ix2 p (0 : Fin 1))) (v19 (ix2 (0 : Fin 1) k)) := by
  unfold k0_pay2
  simp only [shapeCast_self]
  show IntOp.cmpi .eq (broadcastTo S256x1024 v17 broadcasts_S256x1_S256x1024 (ix2 p k))
      (broadcastTo S256x1024 v19 broadcasts_S1x1024_S256x1024 (ix2 p k)) = _
  rw [bcast_col, broadcastTo_1b_ab_apply]

/-- The "neg_big" fill denotes -inf. -/
theorem neg_big : Named.named (F := Ideal) κ "neg_big" (φ := .f32) 0xFF61B1E6#32 = (⊥ : EReal) :=
  IdealRules.named_const.ideal_named_scalar _ _ _ _ rfl

/-- The "pos_big" fill denotes +inf. -/
theorem pos_big : Named.named (F := Ideal) κ "pos_big" (φ := .f32) 0x7F61B1E6#32 = (⊤ : EReal) :=
  IdealRules.named_const.ideal_named_scalar _ _ _ _ rfl

/-- The first output at row p: the largest masked distance. -/
theorem pay3_apply (v0 : Vec Ideal S256x256 .f32) (v1 : Vec Ideal S1024x256 .f32) (v4 : Vec Ideal S256x1 .f32)
    (v6 : Vec Ideal S1x1024 .f32) (v17 : Vec Ideal S256x1 .i32) (v19 : Vec Ideal S1x1024 .i32) (p : Fin 256) :
    k0_pay3 (F := Ideal) v0 v1 v4 v6 v17 v19 (ix2 p (0 : Fin 1))
      = (Finset.univ : Finset (Fin 1024)).fold max ⊥ (fun k =>
          Scalar.select (IntOp.cmpi .eq (v17 (ix2 p (0 : Fin 1))) (v19 (ix2 (0 : Fin 1) k)))
            (k0_pay1 (F := Ideal) v0 v1 v4 v6 (ix2 p k)) ⊥) := by
  unfold k0_pay3
  rw [cast_col]
  refine (Ideal.multiReduction_maximumf_single _ _ reduces_S256x1024_S256 _ _ (ix1 p)).trans ?_
  have hfun : (select (k0_pay2 (F := Ideal) v17 v19) (k0_pay1 (F := Ideal) v0 v1 v4 v6)
        (broadcast S256x1024 (Named.named (F := Ideal) κ "neg_big" (φ := .f32) 0xFF61B1E6#32))
        ∘ reduces_S256x1024_S256.lift (ix1 p))
      = fun k => Scalar.select (IntOp.cmpi .eq (v17 (ix2 p (0 : Fin 1))) (v19 (ix2 (0 : Fin 1) k)))
          (k0_pay1 (F := Ideal) v0 v1 v4 v6 (ix2 p k)) ⊥ :=
    funext fun (k : Fin 1024) => by
      show Scalar.select (k0_pay2 (F := Ideal) v17 v19 (reduces_S256x1024_S256.lift (ix1 p) k))
        (k0_pay1 (F := Ideal) v0 v1 v4 v6 (reduces_S256x1024_S256.lift (ix1 p) k))
        (Named.named (F := Ideal) κ "neg_big" (φ := .f32) 0xFF61B1E6#32) = _
      rw [lift_eq, pay2_apply, neg_big]
  rw [hfun, Ideal.ofBits_def, ofBits_neg_inf]
  rfl

/-- The second output at row p: the smallest distance outside the mask. -/
theorem pay4_apply (v0 : Vec Ideal S256x256 .f32) (v1 : Vec Ideal S1024x256 .f32) (v4 : Vec Ideal S256x1 .f32)
    (v6 : Vec Ideal S1x1024 .f32) (v17 : Vec Ideal S256x1 .i32) (v19 : Vec Ideal S1x1024 .i32) (p : Fin 256) :
    k0_pay4 (F := Ideal) v0 v1 v4 v6 v17 v19 (ix2 p (0 : Fin 1))
      = (Finset.univ : Finset (Fin 1024)).fold min ⊤ (fun k =>
          Scalar.select (IntOp.cmpi .eq (v17 (ix2 p (0 : Fin 1))) (v19 (ix2 (0 : Fin 1) k)))
            ⊤ (k0_pay1 (F := Ideal) v0 v1 v4 v6 (ix2 p k))) := by
  unfold k0_pay4
  rw [cast_col]
  refine ((multiReduction_minimumf_eq_fold _ _ reduces_S256x1024_S256 _ _ (ix1 p)).trans
    (reduces_S256x1024_S256.fold_filter_drop_single _ _ _ (ix1 p))).trans ?_
  have hfun : (select (k0_pay2 (F := Ideal) v17 v19)
        (broadcast S256x1024 (Named.named (F := Ideal) κ "pos_big" (φ := .f32) 0x7F61B1E6#32))
        (k0_pay1 (F := Ideal) v0 v1 v4 v6)
        ∘ reduces_S256x1024_S256.lift (ix1 p))
      = fun k => Scalar.select (IntOp.cmpi .eq (v17 (ix2 p (0 : Fin 1))) (v19 (ix2 (0 : Fin 1) k)))
          ⊤ (k0_pay1 (F := Ideal) v0 v1 v4 v6 (ix2 p k)) :=
    funext fun (k : Fin 1024) => by
      show Scalar.select (k0_pay2 (F := Ideal) v17 v19 (reduces_S256x1024_S256.lift (ix1 p) k))
        (Named.named (F := Ideal) κ "pos_big" (φ := .f32) 0x7F61B1E6#32)
        (k0_pay1 (F := Ideal) v0 v1 v4 v6 (reduces_S256x1024_S256.lift (ix1 p) k)) = _
      rw [lift_eq, pay2_apply, pos_big]
  rw [hfun, Ideal.ofBits_def, ofBits_pos_inf]
  rfl

end Cert.KernelIdeal.Rows

end
-- ==== Proof.KernelSpec.lean ====
/-
  The kernel's two outputs as functions of the six arrays its windows stage, and why they are the mined columns.

  The windows stage the rows X, the gathered centres CB, the rows' squared norms XN as a column, the centres' squared
  norms CN as a row, and the class words as a column TR and as a row TC. Point t of the grid works on rows
  256 t … 256 t + 255 of X, XN and TR and on the whole of CB, CN and TC, so row p of its two output blocks is row
  256 t + p of two whole-array functions: `posK` (the largest masked distance of the row) and `negK` (the smallest
  distance outside the mask), the distance taken from the expansion (XN i + CN k) - 2 <X i, CB k>.
  When XN and CN really are the squared norms, TR and TC really the class words, and every entry of X and CB a real
  number, the expansion is the squared distance and these are `hardPos` and `hardNeg`.
-/
import proofs.«170190_j27204322853527_1_alg».proof.Proof.KernelRows

noncomputable section

namespace Cert.KernelIdeal.Rows

open Cert.KernelIdeal Cert.KernelIdeal.Gen Idealize.ShloMosaic Idealize.ShloMosaic.TcCoe
open Idealize.ShloMosaic.ValueIdx Cert.HardPairs

/-- The clamped distance of row i to centre row k, from the expansion over the staged norms. -/
def distK (X CB : S1024x256.Idx → EReal) (XN : S1024x1.Idx → EReal) (CN : S1x1024.Idx → EReal) (i k : Fin 1024) : EReal :=
  Ideal.sqrt (max (Ideal.ofBits .f32 0x2B8CBCCC#32)
    ((XN (ix2 i (0 : Fin 1)) + CN (ix2 (0 : Fin 1) k))
      - Ideal.ofBits .f32 0x40000000#32 * ∑ d : Fin 256, X (ix2 i d) * CB (ix2 k d)))

/-- Row i's largest masked distance. -/
def posRowK (X CB : S1024x256.Idx → EReal) (XN : S1024x1.Idx → EReal) (CN : S1x1024.Idx → EReal)
    (TR : S1024x1.Idx → BitVec 32) (TC : S1x1024.Idx → BitVec 32) (i : Fin 1024) : EReal :=
  (Finset.univ : Finset (Fin 1024)).fold max ⊥ (fun k =>
    Scalar.select (IntOp.cmpi .eq (TR (ix2 i (0 : Fin 1))) (TC (ix2 (0 : Fin 1) k))) (distK X CB XN CN i k) ⊥)

/-- Row i's smallest distance outside the mask. -/
def negRowK (X CB : S1024x256.Idx → EReal) (XN : S1024x1.Idx → EReal) (CN : S1x1024.Idx → EReal)
    (TR : S1024x1.Idx → BitVec 32) (TC : S1x1024.Idx → BitVec 32) (i : Fin 1024) : EReal :=
  (Finset.univ : Finset (Fin 1024)).fold min ⊤ (fun k =>
    Scalar.select (IntOp.cmpi .eq (TR (ix2 i (0 : Fin 1))) (TC (ix2 (0 : Fin 1) k))) ⊤ (distK X CB XN CN i k))

/-- The first output array: a column whose entry (i, 0) is row i's largest masked distance. -/
def posK (X CB : S1024x256.Idx → EReal) (XN : S1024x1.Idx → EReal) (CN : S1x1024.Idx → EReal)
    (TR : S1024x1.Idx → BitVec 32) (TC : S1x1024.Idx → BitVec 32) : S1024x1.Idx → EReal :=
  fun j => posRowK X CB XN CN TR TC (j 0)

/-- The second output array. -/
def negK (X CB : S1024x256.Idx → EReal) (XN : S1024x1.Idx → EReal) (CN : S1x1024.Idx → EReal)
    (TR : S1024x1.Idx → BitVec 32) (TC : S1x1024.Idx → BitVec 32) : S1024x1.Idx → EReal :=
  fun j => negRowK X CB XN CN TR TC (j 0)

section Block

variable (X CB : S1024x256.Idx → EReal) (XN : S1024x1.Idx → EReal) (CN : S1x1024.Idx → EReal)
  (TR : S1024x1.Idx → BitVec 32) (TC : S1x1024.Idx → BitVec 32) (t : Nat)
  (v0 : Vec Ideal S256x256 .f32) (v1 : Vec Ideal S1024x256 .f32) (v4 : Vec Ideal S256x1 .f32) (v6 : Vec Ideal S1x1024 .f32)
  (v17 : Vec Ideal S256x1 .i32) (v19 : Vec Ideal S1x1024 .i32)
  (h0 : ∀ (p d : Fin 256) (r : Fin 1024), r.val = 256 * t + p.val → v0 (ix2 p d) = X (ix2 r d))
  (h1 : v1 = CB)
  (h2 : ∀ (p : Fin 256) (r : Fin 1024), r.val = 256 * t + p.val → v4 (ix2 p (0 : Fin 1)) = XN (ix2 r (0 : Fin 1)))
  (h3 : v6 = CN)
  (h4 : ∀ (p : Fin 256) (r : Fin 1024), r.val = 256 * t + p.val → v17 (ix2 p (0 : Fin 1)) = TR (ix2 r (0 : Fin 1)))
  (h5 : v19 = TC)

include h0 h1 h2 h3 in
/-- The block's distance table at (p, k) is the array's at (256 t + p, k). -/
theorem dist_block (p : Fin 256) (r : Fin 1024) (hr : r.val = 256 * t + p.val) (k : Fin 1024) :
    k0_pay1 (F := Ideal) v0 v1 v4 v6 (ix2 p k) = distK X CB XN CN r k := by
  subst h1 h3
  rw [pay1_apply, h2 p r hr]
  unfold distK
  simp only [h0 p _ r hr]

include h0 h1 h2 h3 h4 h5 in
/-- Row p of point t's first output block is row 256 t + p of `posK`. -/
theorem pos_block (y : S256x1.Idx) (i : S1024x1.Idx) (hi : (i 0).val = 256 * t + (y 0).val) :
    k0_pay3 (F := Ideal) v0 v1 v4 v6 v17 v19 y = posK X CB XN CN TR TC i := by
  obtain ⟨p, z, rfl⟩ : ∃ (p : Fin 256) (z : Fin 1), y = ix2 p z := ⟨y 0, y 1, eq_ix2 y⟩
  obtain rfl : z = 0 := Subsingleton.elim _ _
  have hr : (i 0).val = 256 * t + p.val := hi
  show _ = posRowK X CB XN CN TR TC (i 0)
  rw [pay3_apply, h4 p (i 0) hr]
  unfold posRowK
  refine congrArg (fun f => Finset.fold max (⊥ : EReal) f (Finset.univ : Finset (Fin 1024))) (funext fun k => ?_)
  rw [dist_block X CB XN CN t v0 v1 v4 v6 h0 h1 h2 h3 p (i 0) hr k, h5]

include h0 h1 h2 h3 h4 h5 in
/-- Row p of point t's second output block is row 256 t + p of `negK`. -/
theorem neg_block (y : S256x1.Idx) (i : S1024x1.Idx) (hi : (i 0).val = 256 * t + (y 0).val) :
    k0_pay4 (F := Ideal) v0 v1 v4 v6 v17 v19 y = negK X CB XN CN TR TC i := by
  obtain ⟨p, z, rfl⟩ : ∃ (p : Fin 256) (z : Fin 1), y = ix2 p z := ⟨y 0, y 1, eq_ix2 y⟩
  obtain rfl : z = 0 := Subsingleton.elim _ _
  have hr : (i 0).val = 256 * t + p.val := hi
  show _ = negRowK X CB XN CN TR TC (i 0)
  rw [pay4_apply, h4 p (i 0) hr]
  unfold negRowK
  refine congrArg (fun f => Finset.fold min (⊤ : EReal) f (Finset.univ : Finset (Fin 1024))) (funext fun k => ?_)
  rw [dist_block X CB XN CN t v0 v1 v4 v6 h0 h1 h2 h3 p (i 0) hr k, h5]

end Block

section Mined

variable (x cb : S1024x256.Idx → EReal) (tg : S1024.Idx → BitVec 32)
  (XN : S1024x1.Idx → EReal) (CN : S1x1024.Idx → EReal) (TR : S1024x1.Idx → BitVec 32) (TC : S1x1024.Idx → BitVec 32)
  (hXN : ∀ i : Fin 1024, XN (ix2 i (0 : Fin 1)) = Ideal.ofBits .f32 0x00000000#32 + ∑ d : Fin 256, x (ix2 i d) * x (ix2 i d))
  (hCN : ∀ k : Fin 1024, CN (ix2 (0 : Fin 1) k) = Ideal.ofBits .f32 0x00000000#32 + ∑ d : Fin 256, cb (ix2 k d) * cb (ix2 k d))
  (hTR : ∀ i : Fin 1024, TR (ix2 i (0 : Fin 1)) = tg (ix1 i))
  (hTC : ∀ k : Fin 1024, TC (ix2 (0 : Fin 1) k) = tg (ix1 k))
  (hx : ∀ j, ∃ r : ℝ, x j = r) (hc : ∀ j, ∃ r : ℝ, cb j = r)

include hXN hCN hx hc in
/-- With the staged norms the squared norms and every entry real, the expansion is the distance. -/
theorem distK_eq (i k : Fin 1024) : distK x cb XN CN i k = HardPairs.dist x cb i k := by
  unfold distK HardPairs.dist
  rw [hXN, hCN]
  exact congrArg (fun s => Ideal.sqrt (max (Ideal.ofBits .f32 0x2B8CBCCC#32) s)) (sqDistExpanded_eq x cb hx hc i k)

include hXN hCN hTR hTC hx hc in
/-- The first output is the column of hardest positives. -/
theorem posRowK_eq (i : Fin 1024) : posRowK x cb XN CN TR TC i = hardPos x cb tg i := by
  unfold posRowK hardPos
  refine congrArg (fun f => Finset.fold max (⊥ : EReal) f (Finset.univ : Finset (Fin 1024))) (funext fun k => ?_)
  rw [hTR, hTC, distK_eq x cb XN CN hXN hCN hx hc]

include hXN hCN hTR hTC hx hc in
/-- The second output is the column of hardest negatives. -/
theorem negRowK_eq (i : Fin 1024) : negRowK x cb XN CN TR TC i = hardNeg x cb tg i := by
  unfold negRowK hardNeg
  refine congrArg (fun f => Finset.fold min (⊤ : EReal) f (Finset.univ : Finset (Fin 1024))) (funext fun k => ?_)
  rw [hTR, hTC, distK_eq x cb XN CN hXN hCN hx hc]

end Mined

end Cert.KernelIdeal.Rows

end
-- ==== Proof.KernelArray.lean ====
/-
  From the blocks the grid's four points write back to the two whole output arrays, and what the arrays staged by
  the windows hold.

  Before the region the host gathers each sample's class centre (`cbOf`: row k of the table is the centre row named
  by sample k's class word, negative words counted from the end, the row clamped into the table), sums the squares of
  each row of x and of each gathered row, and lays the class words out as a column and as a row. Point t reads rows
  256 t … 256 t + 255 of the row-tiled arrays and the whole of the others, and its two output blocks are rows
  256 t … 256 t + 255 of `posK` and `negK` of those arrays; the four blocks tile the 1024 rows, so the two output
  arrays end as `posK` and `negK`.
-/
import proofs.«170190_j27204322853527_1_alg».proof.Proof.Gen.KernelIdeal.Frame
import proofs.«170190_j27204322853527_1_alg».proof.Proof.KernelSpec
import Idealize.ShloMosaic.Lib.StableHlo.Run

noncomputable section

namespace Cert.KernelIdeal.Arr

open Cert.KernelIdeal Cert.KernelIdeal.Gen Cert.KernelIdeal.Rows Idealize.ShloMosaic Idealize.ShloMosaic.TcCoe
open Idealize.ShloMosaic.ValueIdx Idealize.SL.Sem Cert.HardPairs
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the windows stage -/

/-- The gathered centres: row k is the centre row that sample k's class word names. -/
def cbOf (tg : S1024.Idx → BitVec 32) (ct : S55x256.Idx → EReal) : S1024x256.Idx → EReal :=
  Host.gather gather_S55x256_S1024x1_S1024x256_1_0_n_n_0_1_1256 ct
    (broadcastInDim S1024x1 ![0] bcast_S1024_S1024x1_0
      (select (cmpi .slt tg (broadcastInDim S1024 ![] bcast_S_S1024 (constantI S_ 32 0#32)))
        (addi tg (broadcastInDim S1024 ![] bcast_S_S1024 (constantI S_ 32 55#32))) tg))

/-- The arguments as plain functions of an index. -/
abbrev xOf (c : Dev nD) : S1024x256.Idx → EReal := m ((c.tc : Thread nD τ).loc main_arg0)
abbrev tgOf (c : Dev nD) : S1024.Idx → BitVec 32 := m ((c.tc : Thread nD τ).loc main_arg1)
abbrev ctOf (c : Dev nD) : S55x256.Idx → EReal := m ((c.tc : Thread nD τ).loc main_arg2)

theorem V6_eq (c : Dev nD) : (V m c main_v6 : S1024x256.Idx → EReal) = cbOf (tgOf m c) (ctOf m c) := by
  show StableHlo.after hostOps0 (fun b => m (c, b)) (Proc.devRef .tc main_v6) = _
  after_results <;> rfl

theorem reduces_rows : S1024x256.Reduces [1] S1024 := by decide

theorem lift_rows (i : Fin 1024) (d : Fin 256) : reduces_rows.lift (ix1 i) d = ix2 i d :=
  funext fun a => Fin.ext (by match a with | ⟨0, _⟩ => rfl | ⟨1, _⟩ => rfl)

/-- The squared norm of each row of a [1024, 256] array, kept as a column: entry (i, 0). -/
theorem norm_col_apply (A : S1024x256.Idx → EReal) (i : Fin 1024) :
    broadcastInDim S1024x1 ![0] bcast_S1024_S1024x1_0
        (Host.reduceAdd (F := Ideal) (mulf A A) (constant S_ .f32 0x00000000#32) reducesTo_S1024x256_S1024_d1 h_S_)
        (ix2 i (0 : Fin 1))
      = Ideal.ofBits .f32 0x00000000#32 + ∑ d : Fin 256, A (ix2 i d) * A (ix2 i d) := by
  rw [broadcastInDim_apply _ bcast_S1024_S1024x1_0 _ (ix2 i (0 : Fin 1)) (ix1 i) (fun a => match a with
    | ⟨0, _⟩ => by show i.val = if (1024 : Nat) = 1 then 0 else i.val; rw [if_neg (by decide)])]
  simp only [Host.reduceAdd, Ideal.hostReduceAdd_def]
  rw [Ideal.hostReduceAdd_single reducesTo_S1024x256_S1024_d1 reduces_rows]
  refine congrArg (_ + ·) (Finset.sum_congr rfl fun (d : Fin 256) _ => ?_)
  show A (reduces_rows.lift (ix1 i) d) * A (reduces_rows.lift (ix1 i) d) = _
  rw [lift_rows]

theorem V9_apply (c : Dev nD) (i : Fin 1024) :
    (V m c main_v9 : S1024x1.Idx → EReal) (ix2 i (0 : Fin 1))
      = Ideal.ofBits .f32 0x00000000#32 + ∑ d : Fin 256, xOf m c (ix2 i d) * xOf m c (ix2 i d) := by
  have e : (V m c main_v9 : S1024x1.Idx → EReal) = broadcastInDim S1024x1 ![0] bcast_S1024_S1024x1_0
      (Host.reduceAdd (F := Ideal) (mulf (xOf m c) (xOf m c)) (constant S_ .f32 0x00000000#32) reducesTo_S1024x256_S1024_d1 h_S_) := by
    show StableHlo.after hostOps0 (fun b => m (c, b)) (Proc.devRef .tc main_v9) = _
    after_results <;> rfl
  rw [e, norm_col_apply]

theorem V13_apply (c : Dev nD) (k : Fin 1024) :
    (V m c main_v13 : S1x1024.Idx → EReal) (ix2 (0 : Fin 1) k)
      = Ideal.ofBits .f32 0x00000000#32
        + ∑ d : Fin 256, cbOf (tgOf m c) (ctOf m c) (ix2 k d) * cbOf (tgOf m c) (ctOf m c) (ix2 k d) := by
  have e : (V m c main_v13 : S1x1024.Idx → EReal) = shapeCast S1x1024 (broadcastInDim S1024x1 ![0] bcast_S1024_S1024x1_0
      (Host.reduceAdd (F := Ideal) (mulf (cbOf (tgOf m c) (ctOf m c)) (cbOf (tgOf m c) (ctOf m c)))
        (constant S_ .f32 0x00000000#32) reducesTo_S1024x256_S1024_d1 h_S_)) shapeCasts_S1024x1_S1x1024 := by
    show StableHlo.after hostOps0 (fun b => m (c, b)) (Proc.devRef .tc main_v13) = _
    after_results <;> rfl
  rw [e, shapeCast_apply _ shapeCasts_S1024x1_S1x1024 (ix2 (0 : Fin 1) k) (ix2 k (0 : Fin 1)) (by
    rw [Shape.rowMajor_val_two, Shape.rowMajor_val_two]
    show k.val * 1 + 0 = 0 * 1024 + k.val
    omega), norm_col_apply]

theorem V14_apply (c : Dev nD) (i : Fin 1024) :
    (V m c main_v14 : S1024x1.Idx → BitVec 32) (ix2 i (0 : Fin 1)) = tgOf m c (ix1 i) := by
  have e : (V m c main_v14 : S1024x1.Idx → BitVec 32) = shapeCast S1024x1 (tgOf m c) shapeCasts_S1024_S1024x1 := by
    show StableHlo.after hostOps0 (fun b => m (c, b)) (Proc.devRef .tc main_v14) = _
    after_results <;> rfl
  rw [e, shapeCast_apply _ shapeCasts_S1024_S1024x1 (ix2 i (0 : Fin 1)) (ix1 i) (by
    rw [Shape.rowMajor_val_one, Shape.rowMajor_val_two]
    show i.val = i.val * 1 + 0
    omega)]

theorem V15_apply (c : Dev nD) (k : Fin 1024) :
    (V m c main_v15 : S1x1024.Idx → BitVec 32) (ix2 (0 : Fin 1) k) = tgOf m c (ix1 k) := by
  have e : (V m c main_v15 : S1x1024.Idx → BitVec 32) = shapeCast S1x1024 (tgOf m c) shapeCasts_S1024_S1x1024 := by
    show StableHlo.after hostOps0 (fun b => m (c, b)) (Proc.devRef .tc main_v15) = _
    after_results <;> rfl
  rw [e, shapeCast_apply _ shapeCasts_S1024_S1x1024 (ix2 (0 : Fin 1) k) (ix1 k) (by
    rw [Shape.rowMajor_val_one, Shape.rowMajor_val_two]
    show k.val = 0 * 1024 + k.val
    omega)]

/-! ## Each window's block at a point -/

/-- The printed index maps over the grid: the row-tiled windows are at block t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Window 0's block at point t: rows 256 t … of x. -/
theorem iblk0 (c : Dev nD) (t : Fin cfg0.N) (p d : Fin 256) (r : Fin 1024) (hr : r.val = 256 * t.val + p.val) :
    (iblk m c 0 t : Vec Ideal S256x256 .f32) (ix2 p d) = (V m c main_arg0 : S1024x256.Idx → EReal) (ix2 r d) := by
  obtain ⟨e0, e1, -⟩ := idx_facts t
  unfold iblk
  rw [View.read_apply]
  refine congrArg (V m c main_arg0 : S1024x256.Idx → EReal) (funext fun a => Fin.ext ?_)
  match a with
  | ⟨0, _⟩ => show win0_0.index t (0 : Fin 2) * 256 + 1 * p.val = r.val; rw [e0, hr]; omega
  | ⟨1, _⟩ => show win0_0.index t (1 : Fin 2) * 256 + 1 * d.val = d.val; rw [e1]; omega

/-- Window 1's block at every point: the whole table of gathered centres. -/
theorem iblk1 (c : Dev nD) (t : Fin cfg0.N) :
    (iblk m c 1 t : Vec Ideal S1024x256 .f32) = (V m c main_v6 : S1024x256.Idx → EReal) := by
  obtain ⟨-, -, e0, e1, -⟩ := idx_facts t
  funext y
  unfold iblk
  rw [View.read_apply]
  refine congrArg (V m c main_v6 : S1024x256.Idx → EReal) (funext fun a => Fin.ext ?_)
  match a with
  | ⟨0, _⟩ => show win0_1.index t (0 : Fin 2) * 1024 + 1 * (y 0).val = (y 0).val; rw [e0]; omega
  | ⟨1, _⟩ => show win0_1.index t (1 : Fin 2) * 256 + 1 * (y 1).val = (y 1).val; rw [e1]; omega

/-- Window 2's block at point t: rows 256 t … of the column of squared norms. -/
theorem iblk2 (c : Dev nD) (t : Fin cfg0.N) (p : Fin 256) (r : Fin 1024) (hr : r.val = 256 * t.val + p.val) :
    (iblk m c 2 t : Vec Ideal S256x1 .f32) (ix2 p (0 : Fin 1)) = (V m c main_v9 : S1024x1.Idx → EReal) (ix2 r (0 : Fin 1)) := by
  obtain ⟨-, -, -, -, e0, e1, -⟩ := idx_facts t
  unfold iblk
  rw [View.read_apply]
  refine congrArg (V m c main_v9 : S1024x1.Idx → EReal) (funext fun a => Fin.ext ?_)
  match a with
  | ⟨0, _⟩ => show win0_2.index t (0 : Fin 2) * 256 + 1 * p.val = r.val; rw [e0, hr]; omega
  | ⟨1, _⟩ => show win0_2.index t (1 : Fin 2) * 1 + 1 * 0 = 0; rw [e1]

/-- Window 3's block at every point: the whole row of the centres' squared norms. -/
theorem iblk3 (c : Dev nD) (t : Fin cfg0.N) :
    (iblk m c 3 t : Vec Ideal S1x1024 .f32) = (V m c main_v13 : S1x1024.Idx → EReal) := by
  obtain ⟨-, -, -, -, -, -, e0, e1, -⟩ := idx_facts t
  funext y
  unfold iblk
  rw [View.read_apply]
  refine congrArg (V m c main_v13 : S1x1024.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

/-- Window 4's block at point t: rows 256 t … of the column of class words. -/
theorem iblk4 (c : Dev nD) (t : Fin cfg0.N) (p : Fin 256) (r : Fin 1024) (hr : r.val = 256 * t.val + p.val) :
    (iblk m c 4 t : Vec Ideal S256x1 .i32) (ix2 p (0 : Fin 1)) = (V m c main_v14 : S1024x1.Idx → BitVec 32) (ix2 r (0 : Fin 1)) := by
  obtain ⟨-, -, -, -, -, -, -, -, e0, e1, -⟩ := idx_facts t
  unfold iblk
  rw [View.read_apply]
  refine congrArg (V m c main_v14 : S1024x1.Idx → BitVec 32) (funext fun a => Fin.ext ?_)
  match a with
  | ⟨0, _⟩ => show win0_4.index t (0 : Fin 2) * 256 + 1 * p.val = r.val; rw [e0, hr]; omega
  | ⟨1, _⟩ => show win0_4.index t (1 : Fin 2) * 1 + 1 * 0 = 0; rw [e1]

/-- Window 5's block at every point: the whole row of class words. -/
theorem iblk5 (c : Dev nD) (t : Fin cfg0.N) :
    (iblk m c 5 t : Vec Ideal S1x1024 .i32) = (V m c main_v15 : S1x1024.Idx → BitVec 32) := by
  obtain ⟨-, -, -, -, -, -, -, -, -, -, e0, e1, -⟩ := idx_facts t
  funext y
  unfold iblk
  rw [View.read_apply]
  refine congrArg (V m c main_v15 : S1x1024.Idx → BitVec 32) (funext fun a => Fin.ext ?_)
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-! ## What a point writes back, and the arrays after the run -/

/-- The two output arrays as functions of the staged arrays. -/
abbrev posArr (c : Dev nD) : S1024x1.Idx → EReal :=
  posK (V m c main_arg0) (V m c main_v6) (V m c main_v9) (V m c main_v13) (V m c main_v14) (V m c main_v15)
abbrev negArr (c : Dev nD) : S1024x1.Idx → EReal :=
  negK (V m c main_arg0) (V m c main_v6) (V m c main_v9) (V m c main_v13) (V m c main_v14) (V m c main_v15)

/-- Point t writes back rows 256 t … of `posArr`. -/
theorem flushed6 (c : Dev nD) (t : Fin cfg0.N) :
    (dats m 0 c).flushed 6 t = ((cfg0.win 6).blk t).view.read (Elt Ideal) (posArr m c) := by
  show (cfg0.win 6).cut (grid0.coords t) ((dats m 0 c).after 6 t) = _
  rw [after0_6]
  unfold out0_6
  rw [View.canon_unit_zero hz]
  simp only [View.ld_unit_zero (S := S256x256) hz, View.ld_unit_zero (S := S1024x256) hz,
    View.ld_unit_zero (S := S256x1) hz, View.ld_unit_zero (S := S1x1024) hz]
  obtain ⟨-, -, -, -, -, -, -, -, -, -, -, -, e0, e1, -⟩ := idx_facts t
  funext y
  show k0_pay3 (F := Ideal) (iblk m c 0 t) (iblk m c 1 t) (iblk m c 2 t) (iblk m c 3 t) (iblk m c 4 t) (iblk m c 5 t) y
    = posArr m c (((cfg0.win 6).blk t).view.emb y)
  exact pos_block (V m c main_arg0) (V m c main_v6) (V m c main_v9) (V m c main_v13) (V m c main_v14) (V m c main_v15) t.val
    (iblk m c 0 t) (iblk m c 1 t) (iblk m c 2 t) (iblk m c 3 t) (iblk m c 4 t) (iblk m c 5 t)
    (fun p d r hr => iblk0 m c t p d r hr) (iblk1 m c t) (fun p r hr => iblk2 m c t p r hr) (iblk3 m c t)
    (fun p r hr => iblk4 m c t p r hr) (iblk5 m c t) y (((cfg0.win 6).blk t).view.emb y)
    (by show win0_6.index t (0 : Fin 2) * 256 + 1 * (y 0).val = 256 * t.val + (y 0).val; rw [e0]; omega)

/-- Point t writes back rows 256 t … of `negArr`. -/
theorem flushed7 (c : Dev nD) (t : Fin cfg0.N) :
    (dats m 0 c).flushed 7 t = ((cfg0.win 7).blk t).view.read (Elt Ideal) (negArr m c) := by
  show (cfg0.win 7).cut (grid0.coords t) ((dats m 0 c).after 7 t) = _
  rw [after0_7]
  unfold out0_7
  rw [View.canon_unit_zero hz]
  simp only [View.ld_unit_zero (S := S256x256) hz, View.ld_unit_zero (S := S1024x256) hz,
    View.ld_unit_zero (S := S256x1) hz, View.ld_unit_zero (S := S1x1024) hz]
  obtain ⟨-, -, -, -, -, -, -, -, -, -, -, -, -, -, e0, e1⟩ := idx_facts t
  funext y
  show k0_pay4 (F := Ideal) (iblk m c 0 t) (iblk m c 1 t) (iblk m c 2 t) (iblk m c 3 t) (iblk m c 4 t) (iblk m c 5 t) y
    = negArr m c (((cfg0.win 7).blk t).view.emb y)
  exact neg_block (V m c main_arg0) (V m c main_v6) (V m c main_v9) (V m c main_v13) (V m c main_v14) (V m c main_v15) t.val
    (iblk m c 0 t) (iblk m c 1 t) (iblk m c 2 t) (iblk m c 3 t) (iblk m c 4 t) (iblk m c 5 t)
    (fun p d r hr => iblk0 m c t p d r hr) (iblk1 m c t) (fun p r hr => iblk2 m c t p r hr) (iblk3 m c t)
    (fun p r hr => iblk4 m c t p r hr) (iblk5 m c t) y (((cfg0.win 7).blk t).view.emb y)
    (by show win0_7.index t (0 : Fin 2) * 256 + 1 * (y 0).val = 256 * t.val + (y 0).val; rw [e0]; omega)

/-- An index of the first output array is in point t's block iff its row is one of the block's 256. -/
theorem mem_blk6 (t : Fin cfg0.N) (i : S1024x1.Idx) :
    i ∈ ((cfg0.win 6).blk t).view.set ↔ ∀ a : Fin 2, win0_6.index t a * S256x1.size a ≤ (i a).val
      ∧ (i a).val < win0_6.index t a * S256x1.size a + S256x1.size a := by
  show i ∈ ((View.whole main_v16_0).slice (win0_6.rect t)).set ↔ _
  rw [View.set_slice_whole, Rect.mem_set_unit]
  exact Iff.rfl

theorem mem_blk7 (t : Fin cfg0.N) (i : S1024x1.Idx) :
    i ∈ ((cfg0.win 7).blk t).view.set ↔ ∀ a : Fin 2, win0_7.index t a * S256x1.size a ≤ (i a).val
      ∧ (i a).val < win0_7.index t a * S256x1.size a + S256x1.size a := by
  show i ∈ ((View.whole main_v16_1).slice (win0_7.rect t)).set ↔ _
  rw [View.set_slice_whole, Rect.mem_set_unit]
  exact Iff.rfl

/-- Row r is in the block of point r / 256. -/
theorem cover6 (i : S1024x1.Idx) : ∃ t : Fin cfg0.N, (cfg0.win 6).flush t = true ∧ i ∈ ((cfg0.win 6).blk t).view.set := by
  have hi0 : (i 0).val < 1024 := (i 0).isLt
  have hi1 : (i 1).val < 1 := (i 1).isLt
  have hN : cfg0.N = 4 := N_0
  have hlt : (i 0).val / 256 < cfg0.N := by rw [hN]; omega
  obtain ⟨-, -, -, -, -, -, -, -, -, -, -, -, e0, e1, -⟩ := idx_facts ⟨(i 0).val / 256, hlt⟩
  refine ⟨⟨(i 0).val / 256, hlt⟩, flush0_6 _, ?_⟩
  rw [mem_blk6]
  intro a
  match a with
  | ⟨0, _⟩ =>
    show win0_6.index ⟨(i 0).val / 256, hlt⟩ (0 : Fin 2) * 256 ≤ (i 0).val
      ∧ (i 0).val < win0_6.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hlt⟩ (1 : Fin 2) * 1 ≤ (i 1).val
      ∧ (i 1).val < win0_6.index ⟨(i 0).val / 256, hlt⟩ (1 : Fin 2) * 1 + 1
    rw [e1]; omega

theorem cover7 (i : S1024x1.Idx) : ∃ t : Fin cfg0.N, (cfg0.win 7).flush t = true ∧ i ∈ ((cfg0.win 7).blk t).view.set := by
  have hi0 : (i 0).val < 1024 := (i 0).isLt
  have hi1 : (i 1).val < 1 := (i 1).isLt
  have hN : cfg0.N = 4 := N_0
  have hlt : (i 0).val / 256 < cfg0.N := by rw [hN]; omega
  obtain ⟨-, -, -, -, -, -, -, -, -, -, -, -, -, -, e0, e1⟩ := idx_facts ⟨(i 0).val / 256, hlt⟩
  refine ⟨⟨(i 0).val / 256, hlt⟩, flush0_7 _, ?_⟩
  rw [mem_blk7]
  intro a
  match a with
  | ⟨0, _⟩ =>
    show win0_7.index ⟨(i 0).val / 256, hlt⟩ (0 : Fin 2) * 256 ≤ (i 0).val
      ∧ (i 0).val < win0_7.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hlt⟩ (1 : Fin 2) * 1 ≤ (i 1).val
      ∧ (i 1).val < win0_7.index ⟨(i 0).val / 256, hlt⟩ (1 : Fin 2) * 1 + 1
    rw [e1]; omega

/-- The first output array after the run. -/
theorem final6 (c : Dev nD) : (dats m 0 c).arrAt 6 cfg0.N = posArr m c :=
  (dats m 0 c).arrAt_eq_of_cover 6 (posArr m c) (fun t _ => flushed6 m c t) (cover6)

/-- The second output array after the run. -/
theorem final7 (c : Dev nD) : (dats m 0 c).arrAt 7 cfg0.N = negArr m c :=
  (dats m 0 c).arrAt_eq_of_cover 7 (negArr m c) (fun t _ => flushed7 m c t) (cover7)

end Cert.KernelIdeal.Arr

end
-- ==== Proof.KernelTail.lean ====
/-
  The kernel's run with its two results named.

  After the region the host drops the unit axis of the two output columns, and from the vectors ap (hardest
  positives) and an (hardest negatives) takes loss = (sum over i of max ((ap i - an i) + margin) 0) / 1024 and
  prec = (sum over i of (an i - ap i)) / 1024. Under the precondition (every entry of x and of the centre table a real
  number) the two columns are the mined columns `hardPos` / `hardNeg` of x, the gathered centres and the class words.
-/
import proofs.«170190_j27204322853527_1_alg».proof.Proof.KernelArray

noncomputable section

namespace Cert.KernelIdeal.Tail

open Cert.KernelIdeal Cert.KernelIdeal.Gen Cert.KernelIdeal.Rows Cert.KernelIdeal.Arr Idealize.ShloMosaic Idealize.ShloMosaic.TcCoe
open Idealize.ShloMosaic.ValueIdx Idealize.SL.Sem Cert.HardPairs
open Idealize.ShloMosaic.Pipeline (Dat)

variable (m : (ℓ : Loc nD τ sig) → Buf (Elt Ideal) ℓ) (ρ : Dev nD → PrngReg)

/-- The margin loss of the two mined vectors: the mean over the samples of max ((ap - an) + margin) 0. -/
def lossOf (ap an : S1024.Idx → EReal) : S_.Idx → EReal :=
  Host.divf
    (Host.reduceAdd (F := Ideal)
      (maximumf (addf (subf ap an) (broadcastInDim S1024 ![] bcast_S_S1024 (constant S_ .f32 0x3E4CCCCD#32)))
        (broadcastInDim S1024 ![] bcast_S_S1024 (constant S_ .f32 0x00000000#32)))
      (constant S_ .f32 0x00000000#32) reducesTo_S1024_S_d0 h_S_)
    (constant S_ .f32 0x44800000#32)

/-- The mean gap of the two mined vectors: the mean over the samples of an - ap. -/
def precOf (ap an : S1024.Idx → EReal) : S_.Idx → EReal :=
  Host.divf
    (Host.reduceAdd (F := Ideal) (subf an ap) (constant S_ .f32 0x00000000#32) reducesTo_S1024_S_d0 h_S_)
    (constant S_ .f32 0x44800000#32)

/-- The two output columns with their unit axis dropped. -/
abbrev apOf (c : Dev nD) : S1024.Idx → EReal := shapeCast S1024 (posArr m c) shapeCasts_S1024x1_S1024
abbrev anOf (c : Dev nD) : S1024.Idx → EReal := shapeCast S1024 (negArr m c) shapeCasts_S1024x1_S1024

theorem arr6 (c : Dev nD) :
    Pipeline.withArrays (cfgs 0).spec c (V0 m c) (fun w => (dats m 0 c).arrAt w (cfgs 0).N) (Proc.devRef .tc main_v16_0)
      = posArr m c :=
  (Pipeline.withArrays_arr spec0 launch0.win.arr_inj c _ _ 6).trans (final6 m c)

theorem arr7 (c : Dev nD) :
    Pipeline.withArrays (cfgs 0).spec c (V0 m c) (fun w => (dats m 0 c).arrAt w (cfgs 0).N) (Proc.devRef .tc main_v16_1)
      = negArr m c :=
  (Pipeline.withArrays_arr spec0 launch0.win.arr_inj c _ _ 7).trans (final7 m c)

/-- The first result after the host's last lines. -/
theorem loss_tail (c : Dev nD) :
    Pipeline.afterTail₀ cfgs (dats m) 0 (V0 m) [hostOps1, hostOps1_1, hostOps1_2] c main_v24
      = lossOf (apOf m c) (anOf m c) := by
  unfold Pipeline.afterTail₀
  simp only [hostOps1, hostOps1_1, hostOps1_2, List.flatten_cons, List.flatten_nil, List.append_nil, List.cons_append,
    List.nil_append]
  after_results
  rw [arr6, arr7]
  rfl

/-- The second result after the host's last lines. -/
theorem prec_tail (c : Dev nD) :
    Pipeline.afterTail₀ cfgs (dats m) 0 (V0 m) [hostOps1, hostOps1_1, hostOps1_2] c main_v27
      = precOf (apOf m c) (anOf m c) := by
  unfold Pipeline.afterTail₀
  simp only [hostOps1, hostOps1_1, hostOps1_2, List.flatten_cons, List.flatten_nil, List.append_nil, List.cons_append,
    List.nil_append]
  after_results
  rw [arr6, arr7]
  rfl

/-- The run: both results at their terms of the two output columns, the arguments unchanged. -/
theorem run : θ_run defs (onTc (τ := τ) (main (F := Ideal))) ⟨m, fun _ => 0, ρ⟩ (fun r => ∀ c : Dev nD,
      r.2.mem ((c.tc : Thread nD τ).loc main_v24) = lossOf (apOf m c) (anOf m c)
      ∧ r.2.mem ((c.tc : Thread nD τ).loc main_v27) = precOf (apOf m c) (anOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (loss_tail m c),
      ((h c).2 main_v27 (Pipeline.mem_restRefs_of main_v27 (by decide) (by decide))).trans (prec_tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## The two columns are the mined columns -/

/-- A gathered row is a row of the table: its entries are real when the table's are. -/
theorem cb_real (tg : S1024.Idx → BitVec 32) (ct : S55x256.Idx → EReal) (hc : ∀ j, ∃ r : ℝ, ct j = r) :
    ∀ j, ∃ r : ℝ, cbOf tg ct j = r := fun j => by
  unfold cbOf Host.gather
  exact hc _

/-- A column with its unit axis dropped, at i, is the column's entry (i, 0). -/
theorem drop_col (A : S1024x1.Idx → EReal) (i : Fin 1024) :
    shapeCast S1024 A shapeCasts_S1024x1_S1024 (ix1 i) = A (ix2 i (0 : Fin 1)) := by
  refine shapeCast_apply A shapeCasts_S1024x1_S1024 (ix1 i) (ix2 i (0 : Fin 1)) ?_
  rw [Shape.rowMajor_val_one, Shape.rowMajor_val_two]
  show i.val * 1 + 0 = i.val
  omega

section Real

variable (c : Dev nD) (hx : ∀ j, ∃ r : ℝ, xOf m c j = r) (hc : ∀ j, ∃ r : ℝ, ctOf m c j = r)

include hx hc in
/-- The first column is the hardest positives. -/
theorem ap_apply (i : Fin 1024) :
    apOf m c (ix1 i) = hardPos (xOf m c) (cbOf (tgOf m c) (ctOf m c)) (tgOf m c) i := by
  have hx0 : (V m c main_arg0 : S1024x256.Idx → EReal) = xOf m c := V_main_arg0 m c
  refine (drop_col (posArr m c) i).trans ?_
  show posRowK (V m c main_arg0) (V m c main_v6) (V m c main_v9) (V m c main_v13) (V m c main_v14) (V m c main_v15) i = _
  rw [hx0, V6_eq m c]
  exact posRowK_eq (xOf m c) (cbOf (tgOf m c) (ctOf m c)) (tgOf m c) (V m c main_v9) (V m c main_v13) (V m c main_v14)
    (V m c main_v15) (V9_apply m c) (V13_apply m c) (V14_apply m c) (V15_apply m c) hx
    (cb_real (tgOf m c) (ctOf m c) hc) i

include hx hc in
/-- The second column is the hardest negatives. -/
theorem an_apply (i : Fin 1024) :
    anOf m c (ix1 i) = hardNeg (xOf m c) (cbOf (tgOf m c) (ctOf m c)) (tgOf m c) i := by
  have hx0 : (V m c main_arg0 : S1024x256.Idx → EReal) = xOf m c := V_main_arg0 m c
  refine (drop_col (negArr m c) i).trans ?_
  show negRowK (V m c main_arg0) (V m c main_v6) (V m c main_v9) (V m c main_v13) (V m c main_v14) (V m c main_v15) i = _
  rw [hx0, V6_eq m c]
  exact negRowK_eq (xOf m c) (cbOf (tgOf m c) (ctOf m c)) (tgOf m c) (V m c main_v9) (V m c main_v13) (V m c main_v14)
    (V m c main_v15) (V9_apply m c) (V13_apply m c) (V14_apply m c) (V15_apply m c) hx
    (cb_real (tgOf m c) (ctOf m c) hc) i

end Real

end Cert.KernelIdeal.Tail

end
-- ==== Proof.Finite.lean ====
/-
  From the precondition to "every entry is a real number".

  The precondition says, of the rows x and of the centre table, that every entry's absolute value is below +inf
  (two reductions by `and` over all entries, joined by `and`). On the extended reals |v| < +inf leaves exactly the
  real numbers: |+inf| and |-inf| are +inf. The class words are not constrained.
-/
import proofs.«170190_j27204322853527_1_alg».proof.Pre_finite_inputs
import proofs.«170190_j27204322853527_1_alg».proof.Proof.Distance
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below +inf is a real number. -/
theorem real_of_abs_lt (v : EReal)
    (h : Ideal.cmp .olt (max v (-v)) (Ideal.ofBits .f32 0x7F800000#32) = 1#1) : ∃ r : ℝ, v = r := by
  rw [Cert.HardPairs.ofBits_pos_inf] at h
  induction v using EReal.rec with
  | bot => simp [Ideal.cmp] at h
  | coe r => exact ⟨r, rfl⟩
  | top => simp [Ideal.cmp] at h

/-- Under the precondition every entry of the rows and of the centre table is a real number. -/
theorem entries_real [Facts] (a0 : FVec Ideal S1024x256 .f32) (a1 : IVec S1024 32) (a2 : FVec Ideal S55x256 .f32)
    (h : fn (F := Ideal) a0 a1 a2 = fun _ => 1#1) :
    (∀ j, ∃ r : ℝ, a0 j = r) ∧ (∀ j, ∃ r : ℝ, a2 j = r) := by
  have h0 := congrFun h ValueIdx.ix0
  dsimp only [fn] at h0
  have h1 := IntOp.andi_eq_one.mp h0
  exact ⟨fun j => real_of_abs_lt _ (Host.reduce_andi_all _ _ _ _ _ h1.1 j),
    fun j => real_of_abs_lt _ (Host.reduce_andi_all _ _ _ _ _ h1.2 j)⟩

end Cert.Finite

end
-- ==== Proof.lean ====
/-
  Hard-pair mining for a triplet-centre loss: the kernel against its reference, on the extended reals.

  Both programs gather each sample's class centre cb k, take for every pair (i, k) the clamped distance
  sqrt (max eps |x i - cb k|^2), mine per sample the largest distance to a centre of its own class (ap) and the
  smallest to a centre of another class (an), and return the margin loss mean (max (ap - an + margin) 0) and the mean
  gap mean (an - ap). They differ in two places. The reference sums the squared differences; the kernel expands,
  (|x i|^2 + |cb k|^2) - 2 <x i, cb k>, with the norms computed beforehand and the inner products by one matrix product
  per block of 256 rows: on real entries the two are one number (Proof/Distance.lean), which is where the precondition
  is used. And where the mask excludes a pair the reference fills with -inf / +inf while the kernel writes a large
  finite constant, named "neg_big" / "pos_big": at the ideal values the names denote the infinities, which is the
  `preserves` claim's two conjuncts. The rest is layout: the grid's four row blocks tile the 1024 rows
  (Proof/KernelArray.lean), the kernel's row maximum and the host's are one fold (Proof/KernelRows.lean,
  Proof/RefRows.lean), and the last host lines are the same operations in both programs (Proof/KernelTail.lean).
-/
import proofs.«170190_j27204322853527_1_alg».proof.Defs
import proofs.«170190_j27204322853527_1_alg».proof.Proof.Gen.Kernel
import proofs.«170190_j27204322853527_1_alg».proof.Proof.Gen.Kernel.Skeleton
import proofs.«170190_j27204322853527_1_alg».proof.Proof.Gen.Kernel.Launch
import proofs.«170190_j27204322853527_1_alg».proof.Proof.Gen.Kernel.Points
import proofs.«170190_j27204322853527_1_alg».proof.Proof.Gen.Kernel.Frame
import proofs.«170190_j27204322853527_1_alg».proof.Proof.Gen.KernelIdeal
import proofs.«170190_j27204322853527_1_alg».proof.Proof.Gen.KernelIdeal.Skeleton
import proofs.«170190_j27204322853527_1_alg».proof.Proof.Gen.KernelIdeal.Launch
import proofs.«170190_j27204322853527_1_alg».proof.Proof.Gen.KernelIdeal.Points
import proofs.«170190_j27204322853527_1_alg».proof.Proof.Gen.KernelIdeal.Frame
import proofs.«170190_j27204322853527_1_alg».proof.Proof.Gen.ReferenceIdeal
import proofs.«170190_j27204322853527_1_alg».proof.Proof.Gen.ReferenceIdeal.Run
import proofs.«170190_j27204322853527_1_alg».proof.Proof.Gen.ReferenceIdeal.Read
import proofs.«170190_j27204322853527_1_alg».proof.Proof.Gen.Pre_finite_inputs
import proofs.«170190_j27204322853527_1_alg».proof.Proof.RefRows
import proofs.«170190_j27204322853527_1_alg».proof.Proof.KernelTail
import proofs.«170190_j27204322853527_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Tail Cert.KernelIdeal.Arr Cert.HardPairs

/-! ## The two programs compute one function of the arguments -/

/-- Both programs gather the centres by the same operations. -/
theorem gathered_eq (tg : Cert.KernelIdeal.S1024.Idx → BitVec 32) (ct : Cert.KernelIdeal.S55x256.Idx → EReal) :
    Cert.ReferenceIdeal.Read.val_main_v6 (F := Ideal) tg ct = cbOf tg ct := rfl

/-- The reference's first result is the margin loss of its two mined vectors. -/
theorem loss_ref (x0 : Cert.KernelIdeal.S1024x256.Idx → EReal) (x1 : Cert.KernelIdeal.S1024.Idx → BitVec 32)
    (x2 : Cert.KernelIdeal.S55x256.Idx → EReal) :
    Cert.ReferenceIdeal.Read.val_main_v30 (F := Ideal) x0 x1 x2
      = lossOf (Cert.ReferenceIdeal.Read.val_main_v22 (F := Ideal) x0 x1 x2)
          (Cert.ReferenceIdeal.Read.val_main_v24 (F := Ideal) x0 x1 x2) := rfl

/-- The reference's second result is the mean gap of its two mined vectors. -/
theorem prec_ref (x0 : Cert.KernelIdeal.S1024x256.Idx → EReal) (x1 : Cert.KernelIdeal.S1024.Idx → BitVec 32)
    (x2 : Cert.KernelIdeal.S55x256.Idx → EReal) :
    Cert.ReferenceIdeal.Read.val_main_v33 (F := Ideal) x0 x1 x2
      = precOf (Cert.ReferenceIdeal.Read.val_main_v22 (F := Ideal) x0 x1 x2)
          (Cert.ReferenceIdeal.Read.val_main_v24 (F := Ideal) x0 x1 x2) := rfl

section Mined

variable (m : (ℓ : Loc Cert.KernelIdeal.nD Cert.KernelIdeal.τ Cert.KernelIdeal.sig) → Buf (Elt Ideal) ℓ)
  (c : Dev Cert.KernelIdeal.nD) (hx : ∀ j, ∃ r : ℝ, xOf m c j = r) (hc : ∀ j, ∃ r : ℝ, ctOf m c j = r)

include hx hc in
/-- The kernel's first column is the reference's vector of hardest positives. -/
theorem ap_eq : apOf m c = Cert.ReferenceIdeal.Read.val_main_v22 (F := Ideal) (xOf m c) (tgOf m c) (ctOf m c) := by
  funext j
  obtain ⟨i, rfl⟩ : ∃ i : Fin 1024, j = ix1 i := ⟨j 0, eq_ix1 j⟩
  rw [ap_apply m c hx hc, Cert.ReferenceIdeal.RefRows.hardPos_apply, gathered_eq]

include hx hc in
/-- The kernel's second column is the reference's vector of hardest negatives. -/
theorem an_eq : anOf m c = Cert.ReferenceIdeal.Read.val_main_v24 (F := Ideal) (xOf m c) (tgOf m c) (ctOf m c) := by
  funext j
  obtain ⟨i, rfl⟩ : ∃ i : Fin 1024, j = ix1 i := ⟨j 0, eq_ix1 j⟩
  rw [an_apply m c hx hc, Cert.ReferenceIdeal.RefRows.hardNeg_apply, gathered_eq]

end Mined

/-! ## The claims -/

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two named fills denote the two infinities. -/
theorem preserves : Cert.preserves_Kernel_KernelIdeal :=
  ⟨IdealRules.named_const.statement Cert.KernelIdeal.κ "neg_big" .f32 0xFF61B1E6#32 ⊥ rfl,
    IdealRules.named_const.statement Cert.KernelIdeal.κ "pos_big" .f32 0x7F61B1E6#32 ⊤ rfl⟩

/-- Both runs end with both results at the reference's two terms of the (agreeing) arguments. -/
theorem algebraic : Cert.algebraic_KernelIdeal_ReferenceIdeal := by
  intro m ρ m' ρ' hpre hagree
  have hfin := fun c => Cert.Finite.entries_real _ _ _ (hpre c)
  refine ⟨fun c => Cert.ReferenceIdeal.Read.val_main_v30 (F := Ideal) (xOf m c) (tgOf m c) (ctOf m c),
    fun c => Cert.ReferenceIdeal.Read.val_main_v33 (F := Ideal) (xOf m c) (tgOf m c) (ctOf m c), ?_, ?_⟩
  · refine (θ_run Cert.KernelIdeal.defs _ _).mono (fun _ h c => ⟨(h c).1.trans ?_, (h c).2.1.trans ?_, (h c).2.2⟩)
      (Cert.KernelIdeal.Tail.run m ρ)
    · show lossOf (apOf m c) (anOf m c)
        = Cert.ReferenceIdeal.Read.val_main_v30 (F := Ideal) (xOf m c) (tgOf m c) (ctOf m c)
      rw [loss_ref, ap_eq m c (hfin c).1 (hfin c).2, an_eq m c (hfin c).1 (hfin c).2]
    · show precOf (apOf m c) (anOf m c)
        = Cert.ReferenceIdeal.Read.val_main_v33 (F := Ideal) (xOf m c) (tgOf m c) (ctOf m c)
      rw [prec_ref, ap_eq m c (hfin c).1 (hfin c).2, an_eq m c (hfin c).1 (hfin c).2]
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v30_eq, (hagree c).1, (hagree c).2.1, (hagree c).2.2]
    · rw [Cert.ReferenceIdeal.Read.val_main_v33_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
